-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x80 : Shape := ⟨2, ![1048576, 80]⟩
abbrev S1048576 : Shape := ⟨1, ![1048576]⟩
abbrev S_ : Shape := ⟨0, ![]⟩

class Facts : Prop where
  bcast_S_S1048576x80 : S_.BroadcastsInDim S1048576x80 (![] : Fin 0 → Fin S1048576x80.rank)
  reducesTo_S1048576x80_S_d0_1 : S1048576x80.ReducesTo [0, 1] S_
  h_S_ : 0 < S_.numel

variable [Facts]

def fn {F : FTy → Type} [FloatOps F] (main_arg0 : FVec F S1048576x80 .f32) (main_arg1 : IVec S1048576 32) : IVec S_ 1 :=
  let main_v0 : FVec F S1048576x80 .f32 := Host.absf main_arg0
  let main_cst : FVec F S_ .f32 := constant S_ .f32 0x7F800000#32
  let main_v1 : FVec F S1048576x80 .f32 := broadcastInDim S1048576x80 ![] bcast_S_S1048576x80 main_cst
  let main_v2 : IVec S1048576x80 1 := cmpf .olt main_v0 main_v1
  let main_c : IVec S_ 1 := constantI S_ 1 1#1
  let main_v3 : IVec S_ 1 := (fun x v => Host.reduce IntOp.andi x v reducesTo_S1048576x80_S_d0_1 h_S_) main_v2 main_c
  main_v3
-- ==== Kernel.lean ====
abbrev S1048576x80 : Shape := ⟨2, ![1048576, 80]⟩
abbrev S1048576 : Shape := ⟨1, ![1048576]⟩
abbrev S1048576x1 : Shape := ⟨2, ![1048576, 1]⟩
abbrev S8192x80 : Shape := ⟨2, ![8192, 80]⟩
abbrev S8192x1 : Shape := ⟨2, ![8192, 1]⟩
abbrev S8192 : Shape := ⟨1, ![8192]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S1048576x80, .f32⟩
  | .hbm, ⟨1, _⟩ => ⟨S1048576, .i32⟩
  | .hbm, ⟨2, _⟩ => ⟨S1048576x1, .i32⟩
  | .hbm, ⟨3, _⟩ => ⟨S1048576x1, .f32⟩
  | .hbm, ⟨4, _⟩ => ⟨S1048576, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x80, .f32⟩
  | .local _ .vmem, ⟨1, _⟩ => ⟨S8192x80, .f32⟩
  | .local _ .vmem, ⟨2, _⟩ => ⟨S8192x1, .i32⟩
  | .local _ .vmem, ⟨3, _⟩ => ⟨S8192x1, .i32⟩
  | .local _ .vmem, ⟨4, _⟩ => ⟨S8192x1, .f32⟩
  | .local _ .vmem, ⟨5, _⟩ => ⟨S8192x1, .f32⟩
  | _, _ => ⟨S1048576x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1048576_S1048576x1 : S1048576.ShapeCasts S1048576x1
  inb_S8192x80_S8192x80_0_0 : ∀ a, (![0, 0] : Fin 2 → Nat) a + S8192x80.size a ≤ S8192x80.size a
  h_S8192x80 : 0 < S8192x80.numel
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  iota_S8192x80_d1_w32 : S8192x80.Iotas .tc 32 [1]
  broadcasts_S8192x1_S8192x80 : S8192x1.Broadcasts S8192x80
  reduces_S8192x80_S8192 : S8192x80.Reduces [1] S8192
  shapeCasts_S8192_S8192x1 : S8192.ShapeCasts S8192x1
  shapeCasts_S1048576x1_S1048576 : S1048576x1.ShapeCasts S1048576
  reducesTo_S1048576_S_d0 : S1048576.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x80.size a ≤ S1048576x80.size a
  hwx0_0 : ∀ i : grid0.Coords, EltTy.bits .f32 = 32 ∨ (Rect.block (s := S1048576x80) S8192x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S1048576x1.size a
  hwx0_1 : ∀ i : grid0.Coords, EltTy.bits .i32 = 32 ∨ (Rect.block (s := S1048576x1) S8192x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S1048576x1.size a
  hwx0_2 : ∀ i : grid0.Coords, EltTy.bits .f32 = 32 ∨ (Rect.block (s := S1048576x1) S8192x1.size (cc0_transform_2 i) (hinb0_2 i)).WholeWords (EltTy.packing .f32)

variable [Facts₀]

abbrev win0_0 : Pipeline.Window sig grid0 :=
  Pipeline.Window.ofSpec (Memref.whole main_arg0) S8192x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8192x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x80 : Shape := ⟨2, ![1048576, 80]⟩
abbrev S1048576 : Shape := ⟨1, ![1048576]⟩
abbrev S1048576x1 : Shape := ⟨2, ![1048576, 1]⟩
abbrev S1x80 : Shape := ⟨2, ![1, 80]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1048576x80, .f32⟩
  | .hbm, ⟨1, _⟩ => ⟨S1048576, .i32⟩
  | .hbm, ⟨2, _⟩ => ⟨S1048576x1, .i32⟩
  | .hbm, ⟨3, _⟩ => ⟨S1x80, .i32⟩
  | .hbm, ⟨4, _⟩ => ⟨S1048576x80, .i32⟩
  | .hbm, ⟨5, _⟩ => ⟨S1048576x80, .i32⟩
  | .hbm, ⟨6, _⟩ => ⟨S1048576x80, .i1⟩
  | .hbm, ⟨7, _⟩ => ⟨S1048576x80, .f32⟩
  | .hbm, ⟨8, _⟩ => ⟨S_, .f32⟩
  | .hbm, ⟨9, _⟩ => ⟨S1048576x80, .f32⟩
  | .hbm, ⟨10, _⟩ => ⟨S1048576x80, .f32⟩
  | .hbm, ⟨11, _⟩ => ⟨S_, .f32⟩
  | .hbm, ⟨12, _⟩ => ⟨S1048576x80, .f32⟩
  | .hbm, ⟨13, _⟩ => ⟨S1048576x80, .f32⟩
  | .hbm, ⟨14, _⟩ => ⟨S1048576x80, .f32⟩
  | .hbm, ⟨15, _⟩ => ⟨S1048576x80, .f32⟩
  | .hbm, ⟨16, _⟩ => ⟨S_, .f32⟩
  | .hbm, ⟨17, _⟩ => ⟨S1048576x80, .f32⟩
  | .hbm, ⟨18, _⟩ => ⟨S1048576x80, .f32⟩
  | .hbm, ⟨19, _⟩ => ⟨S1048576x80, .f32⟩
  | .hbm, ⟨20, _⟩ => ⟨S1048576x80, .f32⟩
  | .hbm, ⟨21, _⟩ => ⟨S1048576x80, .i1⟩
  | .hbm, ⟨22, _⟩ => ⟨S1048576x80, .f32⟩
  | .hbm, ⟨23, _⟩ => ⟨S1048576x80, .f32⟩
  | .hbm, ⟨24, _⟩ => ⟨S1048576x80, .f32⟩
  | .hbm, ⟨25, _⟩ => ⟨S1048576x80, .f32⟩
  | .hbm, ⟨26, _⟩ => ⟨S1048576x80, .f32⟩
  | .hbm, ⟨27, _⟩ => ⟨S1048576x80, .f32⟩
  | .hbm, ⟨28, _⟩ => ⟨S1048576x80, .f32⟩
  | .hbm, ⟨29, _⟩ => ⟨S1048576x80, .f32⟩
  | .hbm, ⟨30, _⟩ => ⟨S1048576x80, .f32⟩
  | .hbm, ⟨31, _⟩ => ⟨S1048576x80, .f32⟩
  | .hbm, ⟨32, _⟩ => ⟨S_, .f32⟩
  | .hbm, ⟨33, _⟩ => ⟨S1048576x80, .f32⟩
  | .hbm, ⟨34, _⟩ => ⟨S1048576x80, .f32⟩
  | .hbm, ⟨35, _⟩ => ⟨S_, .f32⟩
  | .hbm, ⟨36, _⟩ => ⟨S1048576x80, .f32⟩
  | .hbm, ⟨37, _⟩ => ⟨S1048576x80, .f32⟩
  | .hbm, ⟨38, _⟩ => ⟨S1048576x80, .f32⟩
  | .hbm, ⟨39, _⟩ => ⟨S1048576x80, .f32⟩
  | .hbm, ⟨40, _⟩ => ⟨S_, .f32⟩
  | .hbm, ⟨41, _⟩ => ⟨S1048576, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S1048576x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_v0 : Ref sig .tc := ⟨.hbm, 15, rfl⟩
abbrev main_call1_call0_cst : Ref sig .tc := ⟨.hbm, 16, rfl⟩
abbrev main_call1_call0_v0 : Ref sig .tc := ⟨.hbm, 17, rfl⟩
abbrev main_call1_call0_v1 : Ref sig .tc := ⟨.hbm, 18, rfl⟩
abbrev main_call1_call0_v2 : Ref sig .tc := ⟨.hbm, 19, rfl⟩
abbrev main_call1_call0_v3 : Ref sig .tc := ⟨.hbm, 20, rfl⟩
abbrev main_call1_call0_v4 : Ref sig .tc := ⟨.hbm, 21, rfl⟩
abbrev main_call1_call0_v5 : Ref sig .tc := ⟨.hbm, 22, rfl⟩
abbrev main_call1_call0_v6 : Ref sig .tc := ⟨.hbm, 23, rfl⟩
abbrev main_call1_call0_v7 : Ref sig .tc := ⟨.hbm, 24, rfl⟩
abbrev main_call1_call0_v8 : Ref sig .tc := ⟨.hbm, 25, rfl⟩
abbrev main_call1_call0_v9 : Ref sig .tc := ⟨.hbm, 26, rfl⟩
abbrev main_call1_call0_v10 : Ref sig .tc := ⟨.hbm, 27, rfl⟩
abbrev main_call1_call0_v11 : Ref sig .tc := ⟨.hbm, 28, rfl⟩
abbrev main_call1_v1 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_3 : Ref sig .tc := ⟨.hbm, 40, rfl⟩
abbrev main_v14 : Ref sig .tc := ⟨.hbm, 41, rfl⟩
abbrev main_cst_4 : Ref sig .tc := ⟨.hbm, 42, rfl⟩
abbrev main_v15 : Ref sig .tc := ⟨.hbm, 43, rfl⟩
abbrev main_cst_5 : Ref sig .tc := ⟨.hbm, 44, rfl⟩
abbrev main_v16 : Ref sig .tc := ⟨.hbm, 45, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S1048576x1_S1048576x80_0_1 : S1048576x1.BroadcastsInDim S1048576x80 (![0, 1] : Fin 2 → Fin S1048576x80.rank)
  bcast_S1x80_S1048576x80_0_1 : S1x80.BroadcastsInDim S1048576x80 (![0, 1] : Fin 2 → Fin S1048576x80.rank)
  bcast_S_S1048576x80 : S_.BroadcastsInDim S1048576x80 (![] : Fin 0 → Fin S1048576x80.rank)
  reducesTo_S1048576x80_S1048576_d1 : S1048576x80.ReducesTo [1] S1048576
  h_S_ : 0 < S_.numel
  reducesTo_S1048576_S_d0 : S1048576.ReducesTo [0] S_

variable [Facts₀]

class Facts : Prop extends Facts₀ where

variable [Facts]
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.Elt.lean ====
/-
  One entry of the loss, as a function of one input entry x and of the bit b that says whether the entry's column is
  the row's target class.

  Both programs multiply x by a sign s (+1 at the target class, -1 elsewhere), and then compute, with y = x·s,
      sp = max(0, -y) + log(1 + exp(-|y|))        (the softplus of -y),
      lp = -sp                                    (the logarithm of the sigmoid of y),
      om = 1 - exp(lp),
      entry = -(om²) · lp.
  They differ only in spelling: one writes -y as 0 - y and the other negates; one takes |·| of y and the other of -y;
  one takes the maximum in the other order; one squares by a product and the other by the power function with
  exponent 2; one selects the sign, the other computes 2·b - 1. On the extended reals these agree at every x, the
  infinities included: the only step that is not a plain identity is the square, and the power function with
  exponent 2 is the product wherever its base is not -∞, which 1 - exp(lp) never is because sp is never -∞.
-/
import Idealize.ShloMosaic.PureOps.Ideal
import Idealize.ShloMosaic.PureOps.Ideal.Laws

noncomputable section

namespace Cert.Focal

open Idealize.ShloMosaic

/-! ## The words of the constants -/

theorem ofBits_one : Ideal.ofBits .f32 0x3F800000#32 = 1 := IdealRules.sign_bit.ideal_onePat .f32
theorem ofBits_negOne : Ideal.ofBits .f32 0xBF800000#32 = -1 := IdealRules.sign_bit.ideal_negOnePat .f32
theorem ofBits_two : Ideal.ofBits .f32 0x40000000#32 = ((2 : ℝ) : EReal) := by
  simp [Ideal.ofBits, Ideal.ieee, -EReal.coe_mul]; norm_num

/-! ## The two spellings -/

/-- The sign, selected. -/
def kSign (b : BitVec 1) : EReal :=
  Scalar.select b (Ideal.ofBits .f32 0x3F800000#32) (Ideal.ofBits .f32 0xBF800000#32)

/-- The sign, computed as 2·b - 1. -/
def rSign (b : BitVec 1) : EReal :=
  Ideal.ofBits .f32 0x40000000#32 * ((b.toNat : ℝ) : EReal) - Ideal.ofBits .f32 0x3F800000#32

/-- From y = x·s on: subtraction from zero for every negation, the square a product. -/
def kChain (y : EReal) : EReal :=
  let z : EReal := Ideal.ofBits .f32 0x00000000#32
  let o : EReal := Ideal.ofBits .f32 0x3F800000#32
  let n := z - y
  let d := z - n
  let sp := Scalar.select (Ideal.cmp .one d d) (z + n) (max z n + Ideal.log1p (Ideal.exp (z - max d (-d))))
  let lp := z - sp
  let om := o - Ideal.exp lp
  (z - om * om) * lp

/-- From y = x·s on: negations, the square the power function at exponent 2. -/
def rChain (y : EReal) : EReal :=
  let z : EReal := Ideal.ofBits .f32 0x00000000#32
  let o : EReal := Ideal.ofBits .f32 0x3F800000#32
  let n := -y
  let d := n - z
  let sp := Scalar.select (Ideal.cmp .une d d) (n + z) (max n z + Ideal.log1p (Ideal.exp (-(max d (-d)))))
  let lp := -sp
  let om := o - Ideal.exp lp
  (-(Ideal.pow om (Ideal.ofBits .f32 0x40000000#32))) * lp

def kElt (x : EReal) (b : BitVec 1) : EReal := kChain (x * kSign b)
def rElt (x : EReal) (b : BitVec 1) : EReal := rChain (x * rSign b)

/-! ## They agree -/

theorem sign_eq (b : BitVec 1) : kSign b = rSign b := by
  unfold kSign rSign
  rw [ofBits_one, ofBits_negOne, ofBits_two]
  rcases BitVec.eq_zero_or_eq_one b with h | h <;> subst h
  · show (-1 : EReal) = ((2 : ℝ) : EReal) * (((0 : ℕ) : ℝ) : EReal) - 1
    simp
  · show (1 : EReal) = ((2 : ℝ) : EReal) * (((1 : ℕ) : ℝ) : EReal) - 1
    rw [Nat.cast_one, EReal.coe_one, mul_one, ← EReal.coe_one, ← EReal.coe_sub]
    norm_num

theorem exp_nonneg (a : EReal) : 0 ≤ Ideal.exp a := by
  induction a using EReal.rec with
  | bot => exact le_refl _
  | top => exact le_top
  | coe r => exact EReal.coe_nonneg.mpr (Real.exp_pos r).le

theorem exp_eq_top {a : EReal} (h : Ideal.exp a = ⊤) : a = ⊤ := by
  induction a using EReal.rec with
  | bot => exact absurd (show (0 : EReal) = ⊤ from h) EReal.zero_ne_top
  | top => rfl
  | coe r => exact absurd h (EReal.coe_ne_top _)

theorem log1p_ne_bot {e : EReal} (h : 0 ≤ e) : Ideal.log1p e ≠ ⊥ := by
  unfold Ideal.log1p
  induction e using EReal.rec with
  | bot => exact absurd h (by simp)
  | top =>
    rw [EReal.add_top_of_ne_bot (by rw [← EReal.coe_one]; exact EReal.coe_ne_bot _)]
    exact fun h => absurd (show (⊤ : EReal) = ⊥ from h) (by simp)
  | coe r =>
    have hr : 0 ≤ r := EReal.coe_nonneg.mp h
    rw [← EReal.coe_one, ← EReal.coe_add]
    show (if 1 + r ≤ 0 then (⊥ : EReal) else ((Real.log (1 + r) : ℝ) : EReal)) ≠ ⊥
    rw [if_neg (by linarith)]
    exact EReal.coe_ne_bot _

/-- The power function at exponent 2 is the product, off -∞. -/
theorem pow_two {a : EReal} (h : a ≠ ⊥) : Ideal.pow a ((2 : ℝ) : EReal) = a * a := by
  induction a using EReal.rec with
  | bot => exact absurd rfl h
  | top =>
    rw [Ideal.pow_top, if_pos (by exact_mod_cast (by norm_num : (0 : ℝ) < 2)), EReal.top_mul_top]
  | coe r =>
    show ((Real.rpow r 2 : ℝ) : EReal) = (r : EReal) * (r : EReal)
    rw [← EReal.coe_mul]
    exact congrArg _ ((Real.rpow_two r).trans (sq r))

theorem chain_eq (y : EReal) : kChain y = rChain y := by
  have hone : ∀ d : EReal, Ideal.cmp .one d d = 0#1 := fun d => by simp [Ideal.cmp]
  have hune : ∀ d : EReal, Ideal.cmp .une d d = 0#1 := fun d => by simp [Ideal.cmp]
  have hsel : ∀ a b : EReal, Scalar.select 0#1 a b = b := fun a b => if_neg (by decide)
  unfold kChain rChain
  simp only [Ideal.ofBits_zero_f32, ofBits_one, ofBits_two, hone, hune, hsel, zero_sub, sub_zero, neg_neg]
  rw [max_comm (-y) 0, max_comm (-y) y]
  set sp : EReal := max 0 (-y) + Ideal.log1p (Ideal.exp (-(max y (-y)))) with hsp
  have hsp_ne : sp ≠ ⊥ := by
    rw [hsp, Ne, EReal.add_eq_bot_iff, not_or]
    exact ⟨ne_of_gt (lt_of_lt_of_le EReal.bot_lt_zero (le_max_left _ _)), log1p_ne_bot (exp_nonneg _)⟩
  have hom : (1 : EReal) - Ideal.exp (-sp) ≠ ⊥ := by
    rw [sub_eq_add_neg, Ne, EReal.add_eq_bot_iff, not_or]
    refine ⟨by rw [← EReal.coe_one]; exact EReal.coe_ne_bot _, fun h => hsp_ne ?_⟩
    have := exp_eq_top (EReal.neg_eq_bot_iff.mp h)
    exact EReal.neg_eq_top_iff.mp this
  rw [pow_two hom]

theorem elt_eq (x : EReal) (b : BitVec 1) : kElt x b = rElt x b := by
  unfold kElt rElt
  rw [sign_eq, chain_eq]

end Cert.Focal

end
-- ==== Proof.KernelBlock.lean ====
/-
  One block of the kernel's output, entry by entry.

  The body loads a block x0 of 8192 rows and 80 columns of the input and the 8192 target classes x1 of those rows
  (as a column), and stores a column of 8192 numbers. Entry p of that column is the sum, over the 80 columns j, of the
  loss entry of x0(p, j), the sign bit being "column j is row p's target class": the column of classes is repeated
  along the 80 columns and compared with the column counter, everything after that is entrywise, and the sum is over
  the second axis.
-/
import proofs.«103590_j22393959482076_2_alg».proof.Proof.Gen.KernelIdeal.Skeleton
import proofs.«103590_j22393959482076_2_alg».proof.Proof.LibColumn
import proofs.«103590_j22393959482076_2_alg».proof.Proof.Elt
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-- The index of the block that the sum over the columns visits at column j of row p. -/
theorem lift_eq (p : Fin 8192) (j : Fin 80) :
    (Facts₀.reduces_S8192x80_S8192).lift (ix1 p) j = ix2 p j :=
  funext fun a => Fin.ext (by match a with | ⟨0, _⟩ => rfl | ⟨1, _⟩ => rfl)

/-- Entry (p, ·) of the stored column. -/
theorem pay_apply (x0 : Vec Ideal S8192x80 .f32) (x1 : Vec Ideal S8192x1 .i32) (p : Fin 8192) (u : Fin 1) :
    k0_pay1 (F := Ideal) x0 x1 (ix2 p u)
      = ∑ j : Fin 80, Cert.Focal.kElt (x0 (ix2 p j)) (IntOp.cmpi .eq (BitVec.ofNat 32 j.val) (x1 (ix2 p (0 : Fin 1)))) := by
  unfold k0_pay1
  refine (Cert.LibColumn.shapeCast_a_a1_apply _ _ p u).trans ?_
  refine (Ideal.multiReduction_add_single _ _ _ _ _ (ix1 p)).trans ?_
  refine Finset.sum_congr rfl fun j _ => ?_
  rw [lift_eq p j]
  have e3 : iota .tc S8192x80 32 [1] Facts₀.iota_S8192x80_d1_w32 (ix2 p j) = BitVec.ofNat 32 j.val :=
    iota_single_apply .tc S8192x80 32 1 _ (ix2 p j)
  have e4 : broadcastTo S8192x80 (shapeCast S8192x1 x1 Facts₀.shapeCasts_S8192x1_S8192x1) Facts₀.broadcasts_S8192x1_S8192x80 (ix2 p j)
      = x1 (ix2 p (0 : Fin 1)) := by
    rw [shapeCast_self]; exact Cert.LibColumn.broadcastTo_a1_ab_apply _ _ p j
  show Cert.Focal.kChain (x0 (ix2 p j) * Cert.Focal.kSign (IntOp.cmpi .eq
      (iota .tc S8192x80 32 [1] Facts₀.iota_S8192x80_d1_w32 (ix2 p j))
      (broadcastTo S8192x80 (shapeCast S8192x1 x1 Facts₀.shapeCasts_S8192x1_S8192x1) Facts₀.broadcasts_S8192x1_S8192x80 (ix2 p j)))) = _
  rw [e3, e4]
  rfl

/-- The stored column as a function of the row. -/
theorem pay_fun (x0 : Vec Ideal S8192x80 .f32) (x1 : Vec Ideal S8192x1 .i32) :
    k0_pay1 (F := Ideal) x0 x1
      = fun y => ∑ j : Fin 80, Cert.Focal.kElt (x0 (ix2 (y 0) j)) (IntOp.cmpi .eq (BitVec.ofNat 32 j.val) (x1 (ix2 (y 0) (0 : Fin 1)))) := by
  funext y
  obtain ⟨p, u, rfl⟩ : ∃ (p : Fin 8192) (u : Fin 1), y = ix2 p u := ⟨y 0, y 1, eq_ix2 y⟩
  exact pay_apply x0 x1 p u

end Cert.KernelIdeal.Block

end
-- ==== Proof.Spec.lean ====
/-
  The quantity both programs compute: the mean, over the 1048576 rows, of each row's loss, a row's loss being the sum
  over its 80 columns of the loss entry of the input there (the sign bit: "this column is the row's target class").
-/
import proofs.«103590_j22393959482076_2_alg».proof.Proof.Elt
import Idealize.ShloMosaic.Lib.ValueIdx

noncomputable section

namespace Cert.Focal

open Idealize.ShloMosaic Idealize.ShloMosaic.ValueIdx

/-- Row r's loss: the sum over the columns of the entries' losses, with `elt` the entry's loss as one of the two
    programs spells it. -/
def rowLoss (elt : EReal → BitVec 1 → EReal) (a0 : (⟨2, ![1048576, 80]⟩ : Shape).Idx → EReal) (tg : (⟨1, ![1048576]⟩ : Shape).Idx → BitVec 32)
    (r : Fin 1048576) : EReal :=
  ∑ j : Fin 80, elt (a0 (ix2 r j)) (IntOp.cmpi .eq (BitVec.ofNat 32 j.val) (tg (ix1 r)))

/-- The rows' losses as a vector. -/
def rowLosses (elt : EReal → BitVec 1 → EReal) (a0 : (⟨2, ![1048576, 80]⟩ : Shape).Idx → EReal) (tg : (⟨1, ![1048576]⟩ : Shape).Idx → BitVec 32) :
    FVec Ideal ⟨1, ![1048576]⟩ .f32 :=
  fun i => rowLoss elt a0 tg (i 0)

/-- The mean of a vector of 1048576 numbers as both programs take it: the host's sum from zero, divided by the
    constant 1048576. -/
def mean (h : (⟨1, ![1048576]⟩ : Shape).ReducesTo [0] ⟨0, ![]⟩) (h0 : 0 < (⟨0, ![]⟩ : Shape).numel)
    (rows : FVec Ideal ⟨1, ![1048576]⟩ .f32) : FVec Ideal ⟨0, ![]⟩ .f32 :=
  Host.divf (F := Ideal) (Host.reduceAdd (F := Ideal) rows (constant (F := Ideal) ⟨0, ![]⟩ .f32 0x00000000#32) h h0)
    (constant (F := Ideal) ⟨0, ![]⟩ .f32 0x49800000#32)

theorem rowLosses_congr (a0 : (⟨2, ![1048576, 80]⟩ : Shape).Idx → EReal) (tg : (⟨1, ![1048576]⟩ : Shape).Idx → BitVec 32) :
    rowLosses kElt a0 tg = rowLosses rElt a0 tg :=
  funext fun i => by
    unfold rowLosses rowLoss
    exact Finset.sum_congr rfl fun j _ => elt_eq _ _

end Cert.Focal

end
-- ==== Proof.KernelArray.lean ====
/-
  The kernel's output array after the run.

  Grid point t works on rows 8192·t … 8192·t + 8191: its input block is those rows of the input, its block of
  classes those rows of the column of classes (the vector of classes made a column before the region), and it
  writes back those rows of the output column. So what point t writes back is its block of ONE column defined on all
  1048576 rows — row r holding the sum over the columns of the loss entries of row r — and, the 128 blocks covering
  every row, the array ends holding that column.
-/
import proofs.«103590_j22393959482076_2_alg».proof.Proof.Gen.KernelIdeal.Frame
import proofs.«103590_j22393959482076_2_alg».proof.Proof.KernelBlock
import proofs.«103590_j22393959482076_2_alg».proof.Proof.Spec
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The output column as a function of the input and of the column of classes. -/
def col (a0 : S1048576x80.Idx → EReal) (a1 : S1048576x1.Idx → BitVec 32) : S1048576x1.Idx → EReal :=
  fun i => ∑ j : Fin 80, Cert.Focal.kElt (a0 (ix2 (i 0) j)) (IntOp.cmpi .eq (BitVec.ofNat 32 j.val) (a1 (ix2 (i 0) (0 : Fin 1))))

theorem hz : (![0, 0] : Fin 2 → Nat) = fun _ => 0 := funext fun a => by fin_cases a <;> rfl

/-- The three windows move together along the rows and stay at column block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 127 :=
  (by decide +kernel : ∀ t : Fin grid0.N, _)

/-- Every block of rows is some point's. -/
theorem idx_onto : ∀ q : Fin 128, ∃ t : Fin cfg0.N, win0_2.index t = ![q.val, 0] :=
  (by decide +kernel : ∀ q : Fin 128, ∃ t : Fin grid0.N, win0_2.index t = ![q.val, 0])

/-- What point t writes back is its block of the column. -/
theorem flushed_eq (c : Dev nD) (t : Fin cfg0.N) :
    (dats m 0 c).flushed 2 t = ((cfg0.win 2).blk t).view.read (Elt Ideal) (col (V m c main_arg0) (V m c main_v0)) := by
  show (cfg0.win 2).cut (grid0.coords t) ((dats m 0 c).after 2 t) = _
  rw [after0_2]
  unfold out0_2
  rw [View.canon_unit_zero hz]
  simp only [View.ld_unit_zero (S := S8192x80) hz, View.ld_unit_zero (S := S8192x1) hz]
  rw [Block.pay_fun]
  obtain ⟨e0, e1, e2, e3, e4, e5⟩ := idx_facts t
  funext y
  show ∑ j : Fin 80, Cert.Focal.kElt (V m c main_arg0 (((cfg0.win 0).blk t).view.emb (ix2 (y 0) j)))
        (IntOp.cmpi .eq (BitVec.ofNat 32 j.val) (V m c main_v0 (((cfg0.win 1).blk t).view.emb (ix2 (y 0) (0 : Fin 1)))))
     = ∑ j : Fin 80, Cert.Focal.kElt (V m c main_arg0 (ix2 ((((cfg0.win 2).blk t).view.emb y) 0) j))
        (IntOp.cmpi .eq (BitVec.ofNat 32 j.val) (V m c main_v0 (ix2 ((((cfg0.win 2).blk t).view.emb y) 0) (0 : Fin 1))))
  refine Finset.sum_congr rfl fun j _ => ?_
  have h0 : ((cfg0.win 0).blk t).view.emb (ix2 (y 0) j) = ix2 ((((cfg0.win 2).blk t).view.emb y) 0) j := by
    funext a; apply Fin.ext
    match a with
    | ⟨0, _⟩ => show win0_0.index t (0 : Fin 2) * 8192 + 1 * (y 0).val = win0_2.index t (0 : Fin 2) * 8192 + 1 * (y 0).val; omega
    | ⟨1, _⟩ => show win0_0.index t (1 : Fin 2) * 80 + 1 * j.val = j.val; omega
  have h1 : ((cfg0.win 1).blk t).view.emb (ix2 (y 0) (0 : Fin 1)) = ix2 ((((cfg0.win 2).blk t).view.emb y) 0) (0 : Fin 1) := by
    funext a; apply Fin.ext
    match a with
    | ⟨0, _⟩ => show win0_1.index t (0 : Fin 2) * 8192 + 1 * (y 0).val = win0_2.index t (0 : Fin 2) * 8192 + 1 * (y 0).val; omega
    | ⟨1, _⟩ => show win0_1.index t (1 : Fin 2) * 1 + 1 * 0 = 0; omega
  rw [h0, h1]
  rfl

/-- A row is in point t's block iff it is one of the point's 8192 rows. -/
theorem mem_blk (t : Fin cfg0.N) (i : S1048576x1.Idx) :
    i ∈ ((cfg0.win 2).blk t).view.set ↔ ∀ a : Fin 2, win0_2.index t a * S8192x1.size a ≤ (i a).val ∧ (i a).val < win0_2.index t a * S8192x1.size a + S8192x1.size a := by
  show i ∈ ((View.whole main_v1).slice (win0_2.rect t)).set ↔ _
  rw [View.set_slice_whole, Rect.mem_set_unit]
  exact Iff.rfl

/-- Every row is in the block of the point r / 8192. -/
theorem cover (i : S1048576x1.Idx) : ∃ t : Fin cfg0.N, (cfg0.win 2).flush t = true ∧ i ∈ ((cfg0.win 2).blk t).view.set := by
  have hi0 : (i 0).val < 1048576 := (i 0).isLt
  have hi1 : (i 1).val < 1 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 1 ≤ (i 1).val ∧ (i 1).val < win0_2.index t (1 : Fin 2) * 1 + 1; omega

/-- The column of classes the region finds: the vector of classes, made a column. -/
theorem V_main_v0 (c : Dev nD) :
    (V m c main_v0 : S1048576x1.Idx → BitVec 32)
      = shapeCast S1048576x1 (m ((c : Thread nD τ).loc main_arg1)) Facts₀.shapeCasts_S1048576_S1048576x1 := by
  show StableHlo.after hostOps0 (fun b => m (c, b)) (Proc.devRef .tc main_v0) = _
  after_results
  rfl

/-- The array after the run: row r holds row r's loss of the two ARGUMENT arrays. -/
theorem final (c : Dev nD) :
    (dats m 0 c).arrAt 2 cfg0.N
      = fun i => Cert.Focal.rowLoss Cert.Focal.kElt (m ((c : Thread nD τ).loc main_arg0)) (m ((c : Thread nD τ).loc main_arg1)) (i 0) := by
  rw [(dats m 0 c).arrAt_eq_of_cover 2 _ (fun t _ => flushed_eq m c t) cover, V_main_arg0, V_main_v0]
  funext i
  obtain ⟨r, u, rfl⟩ : ∃ (r : Fin 1048576) (u : Fin 1), i = ix2 r u := ⟨i 0, i 1, eq_ix2 i⟩
  show ∑ j : Fin 80, Cert.Focal.kElt (m ((c : Thread nD τ).loc main_arg0) (ix2 r j))
      (IntOp.cmpi .eq (BitVec.ofNat 32 j.val) (shapeCast S1048576x1 (m ((c : Thread nD τ).loc main_arg1)) Facts₀.shapeCasts_S1048576_S1048576x1 (ix2 r (0 : Fin 1)))) = _
  refine Finset.sum_congr rfl fun j _ => ?_
  rw [Cert.LibColumn.shapeCast_a_a1_apply]
  rfl

end Cert.KernelIdeal.Arr

end
-- ==== Proof.LibColumnBack.lean ====
/-
  A column read back as a vector: an [a, 1] array cast to [a] has, at i, the column's entry (i, 0).
-/
import Idealize.ShloMosaic.Lib.Pipeline.Value
import Idealize.ShloMosaic.Lib.ValueIdx

noncomputable section

namespace Cert.LibColumnBack

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnBack

end
-- ==== Proof.KernelRun.lean ====
/-
  The kernel program's result.

  After the region the program reads the output column back as a vector of 1048576 numbers, sums it on the host from
  zero and divides by the constant 1048576. The column being the rows' losses, the result is the mean of the rows'
  losses; the two argument arrays end as they were launched.
-/
import proofs.«103590_j22393959482076_2_alg».proof.Proof.KernelArray
import proofs.«103590_j22393959482076_2_alg».proof.Proof.LibColumnBack

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The operations after the region, over whatever the buffers hold when they start: the mean of the output column
    read as a vector. -/
theorem tail_after (W : Valuation τ sig (Elt Ideal)) :
    after (hostOps1 (F := Ideal)) W (Proc.devRef .tc main_v4)
      = Cert.Focal.mean Facts₀.reducesTo_S1048576_S_d0 Facts₀.h_S_
          (shapeCast S1048576 (W (Proc.devRef .tc main_v1)) Facts₀.shapeCasts_S1048576x1_S1048576) := by
  after_results
  rfl

/-- The result buffer after the whole program. -/
theorem tail_eq (c : Dev nD) :
    Pipeline.afterTail₀ cfgs (dats m) 0 (V0 m) [hostOps1] c main_v4
      = Cert.Focal.mean Facts₀.reducesTo_S1048576_S_d0 Facts₀.h_S_
          (Cert.Focal.rowLosses Cert.Focal.kElt (m ((c : Thread nD τ).loc main_arg0)) (m ((c : Thread nD τ).loc main_arg1))) := by
  unfold Pipeline.afterTail₀
  refine (tail_after _).trans (congrArg (Cert.Focal.mean _ _) ?_)
  funext i
  obtain ⟨r, rfl⟩ : ∃ r : Fin 1048576, i = ix1 r := ⟨i 0, eq_ix1 i⟩
  refine (Cert.LibColumnBack.shapeCast_a1_a_apply _ _ r).trans ?_
  exact congrFun ((Pipeline.withArrays_arr spec0 launch0.win.arr_inj c (V0 m c) (fun w => (dats m 0 c).arrAt w cfg0.N) 2).trans (Arr.final m c)) (ix2 r (0 : Fin 1))

/-- Every weakly fair execution of the kernel program terminates with the result at the mean of the rows' losses of
    the argument arrays, which end unchanged. -/
theorem run : θ_run defs (onTc (τ := τ) (main (F := Ideal))) ⟨m, fun _ => 0, ρ⟩ (fun r => ∀ c : Dev nD,
      r.2.mem ((c.tc : Thread nD τ).loc main_v4)
        = Cert.Focal.mean Facts₀.reducesTo_S1048576_S_d0 Facts₀.h_S_
            (Cert.Focal.rowLosses Cert.Focal.kElt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Run

end
-- ==== Proof.RefRun.lean ====
/-
  The reference program's run, read back: its forty-four host operations in order (the three functions it calls —
  the one-hot matrix, the logarithm of the sigmoid and, inside it, the softplus — written at their call sites over
  the calls' own buffers), and the result after them as one term of the two argument arrays.
-/
import proofs.«103590_j22393959482076_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [ TRef.unary (.of main_arg1 : TRef sig ⟨S1048576, .i32⟩) main_call0.v0 (broadcastInDim S1048576x1 ![0] bcast_S1048576_S1048576x1_0),
    TRef.nullary main_call0.v1 (iotaInDim S1x80 32 1),
    TRef.unary main_call0.v0 main_call0.v2 (broadcastInDim S1048576x80 ![0, 1] bcast_S1048576x1_S1048576x80_0_1),
    TRef.unary main_call0.v1 main_call0.v3 (broadcastInDim S1048576x80 ![0, 1] bcast_S1x80_S1048576x80_0_1),
    TRef.binary main_call0.v2 main_call0.v3 main_call0.v4 (cmpi .eq),
    TRef.unary main_call0.v4 main_call0.v5 (uitofp .f32),
    nullary main_cst (constant S_ .f32 0x40000000#32),
    unary main_cst main_v1 (broadcastInDim S1048576x80 ![] bcast_S_S1048576x80 : (⟨S_, .f32⟩ : BufTy).Contents (Elt F) → (⟨S1048576x80, .f32⟩ : BufTy).Contents (Elt F)),
    binary main_v1 main_v0 main_v2 (mulf : (⟨S1048576x80, .f32⟩ : BufTy).Contents (Elt F) → (⟨S1048576x80, .f32⟩ : BufTy).Contents (Elt F) → (⟨S1048576x80, .f32⟩ : BufTy).Contents (Elt F)),
    nullary main_cst_0 (constant S_ .f32 0x3F800000#32),
    unary main_cst_0 main_v3 (broadcastInDim S1048576x80 ![] bcast_S_S1048576x80 : (⟨S_, .f32⟩ : BufTy).Contents (Elt F) → (⟨S1048576x80, .f32⟩ : BufTy).Contents (Elt F)),
    binary main_v2 main_v3 main_v4 (subf : (⟨S1048576x80, .f32⟩ : BufTy).Contents (Elt F) → (⟨S1048576x80, .f32⟩ : BufTy).Contents (Elt F) → (⟨S1048576x80, .f32⟩ : BufTy).Contents (Elt F)),
    binary main_arg0 main_v4 main_v5 (mulf : (⟨S1048576x80, .f32⟩ : BufTy).Contents (Elt F) → (⟨S1048576x80, .f32⟩ : BufTy).Contents (Elt F) → (⟨S1048576x80, .f32⟩ : BufTy).Contents (Elt F)),
    TRef.unary (.of main_v5 : TRef sig ⟨S1048576x80, .f32⟩) main_call1.v0 Host.negf,
    TRef.nullary main_call1.call0.cst (constant S_ .f32 0x00000000#32),
    TRef.unary main_call1.call0.cst main_call1.call0.v0 (broadcastInDim S1048576x80 ![] bcast_S_S1048576x80),
    TRef.binary main_call1.v0 main_call1.call0.v0 main_call1.call0.v1 maximumf,
    TRef.unary main_call1.call0.cst main_call1.call0.v2 (broadcastInDim S1048576x80 ![] bcast_S_S1048576x80),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S1048576x80 ![] bcast_S_S1048576x80),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    unary main_v6 main_v7 (Host.exp : (⟨S1048576x80, .f32⟩ : BufTy).Contents (Elt F) → (⟨S1048576x80, .f32⟩ : BufTy).Contents (Elt F)),
    nullary main_cst_1 (constant S_ .f32 0x3F800000#32),
    unary main_cst_1 main_v8 (broadcastInDim S1048576x80 ![] bcast_S_S1048576x80 : (⟨S_, .f32⟩ : BufTy).Contents (Elt F) → (⟨S1048576x80, .f32⟩ : BufTy).Contents (Elt F)),
    binary main_v8 main_v7 main_v9 (subf : (⟨S1048576x80, .f32⟩ : BufTy).Contents (Elt F) → (⟨S1048576x80, .f32⟩ : BufTy).Contents (Elt F) → (⟨S1048576x80, .f32⟩ : BufTy).Contents (Elt F)),
    nullary main_cst_2 (constant S_ .f32 0x40000000#32),
    unary main_cst_2 main_v10 (broadcastInDim S1048576x80 ![] bcast_S_S1048576x80 : (⟨S_, .f32⟩ : BufTy).Contents (Elt F) → (⟨S1048576x80, .f32⟩ : BufTy).Contents (Elt F)),
    binary main_v9 main_v10 main_v11 (Host.powf : (⟨S1048576x80, .f32⟩ : BufTy).Contents (Elt F) → (⟨S1048576x80, .f32⟩ : BufTy).Contents (Elt F) → (⟨S1048576x80, .f32⟩ : BufTy).Contents (Elt F)),
    unary main_v11 main_v12 (Host.negf : (⟨S1048576x80, .f32⟩ : BufTy).Contents (Elt F) → (⟨S1048576x80, .f32⟩ : BufTy).Contents (Elt F)),
    binary main_v12 main_v6 main_v13 (mulf : (⟨S1048576x80, .f32⟩ : BufTy).Contents (Elt F) → (⟨S1048576x80, .f32⟩ : BufTy).Contents (Elt F) → (⟨S1048576x80, .f32⟩ : BufTy).Contents (Elt F)),
    nullary main_cst_3 (constant S_ .f32 0x00000000#32),
    binary main_v13 main_cst_3 main_v14 ((fun x v => Host.reduceAdd x v reducesTo_S1048576x80_S1048576_d1 h_S_) : (⟨S1048576x80, .f32⟩ : BufTy).Contents (Elt F) → (⟨S_, .f32⟩ : BufTy).Contents (Elt F) → (⟨S1048576, .f32⟩ : BufTy).Contents (Elt F)),
    nullary main_cst_4 (constant S_ .f32 0x00000000#32),
    binary main_v14 main_cst_4 main_v15 ((fun x v => Host.reduceAdd x v reducesTo_S1048576_S_d0 h_S_) : (⟨S1048576, .f32⟩ : BufTy).Contents (Elt F) → (⟨S_, .f32⟩ : BufTy).Contents (Elt F) → (⟨S_, .f32⟩ : BufTy).Contents (Elt F)),
    nullary main_cst_5 (constant S_ .f32 0x49800000#32),
    binary main_v15 main_cst_5 main_v16 (Host.divf : (⟨S_, .f32⟩ : BufTy).Contents (Elt F) → (⟨S_, .f32⟩ : BufTy).Contents (Elt F) → (⟨S_, .f32⟩ : BufTy).Contents (Elt F)) ]

-- forty-four binds re-associated: the rewriting recurses once per statement
set_option maxRecDepth 2048 in
/-- @main is that straight line: the called functions' bodies at their calls, the sequencing re-associated. -/
theorem main_eq (c : Dev nD) : main (F := F) c = seq ops := by
  simp only [main, fn_one_hot.body, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    unary_bufs_sub .., nullary_bufs_sub .., unary_bufs_sub .., binary_bufs_sub .., nullary_bufs_sub .., unary_bufs_sub ..,
    binary_bufs_sub .., unary_bufs_sub .., binary_bufs_sub .., nullary_bufs_sub .., binary_bufs_sub .., nullary_bufs_sub ..,
    binary_bufs_sub .., nullary_bufs_sub .., binary_bufs_sub ..⟩

/-- Every weakly fair execution of @main terminates, and every buffer ends at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference's result, read.

  After its forty-four operations the reference's result is the mean of a vector of row sums; row r's sum is the
  host's sum from zero, over the 80 columns j, of an entrywise term of the input at (r, j) and of the one-hot matrix
  there — the class of row r (the vector of classes repeated along the columns) compared with the column counter
  (a row of 80 counters repeated along the rows). Entry by entry that term is the reference's spelling of the loss
  entry, so the vector of row sums is the vector of the rows' losses.
-/
import proofs.«103590_j22393959482076_2_alg».proof.Proof.RefRun
import proofs.«103590_j22393959482076_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo
open Idealize.ShloMosaic.ValueIdx

variable {F : FTy → Type} [FloatOps F]

/-- A constant repeated over the whole matrix. -/
def splat (w : BitVec 32) : FVec F S1048576x80 .f32 :=
  broadcastInDim S1048576x80 ![] Facts₀.bcast_S_S1048576x80 (constant S_ .f32 w)

/-- The class of each row, repeated along the columns. -/
def classes (a1 : IVec S1048576 32) : IVec S1048576x80 32 :=
  broadcastInDim S1048576x80 ![0, 1] Facts₀.bcast_S1048576x1_S1048576x80_0_1 (broadcastInDim S1048576x1 ![0] Facts₀.bcast_S1048576_S1048576x1_0 a1)

/-- The column counter, repeated along the rows. -/
def counters : IVec S1048576x80 32 :=
  broadcastInDim S1048576x80 ![0, 1] Facts₀.bcast_S1x80_S1048576x80_0_1 (iotaInDim S1x80 32 1)

/-- The matrix of loss entries as the reference's operations compose it. -/
def entries (a0 : FVec F S1048576x80 .f32) (a1 : IVec S1048576 32) : FVec F S1048576x80 .f32 :=
  let y := mulf a0 (subf (mulf (splat 0x40000000#32) (uitofp .f32 (cmpi .eq (classes a1) counters))) (splat 0x3F800000#32))
  let n := Host.negf y
  let d := subf n (splat 0x00000000#32)
  let sp := select (cmpf .une d d) (addf n (splat 0x00000000#32))
    (addf (maximumf n (splat 0x00000000#32)) (Host.log1p (Host.exp (Host.negf (Host.absf d)))))
  let lp := Host.negf sp
  mulf (Host.negf (Host.powf (subf (splat 0x3F800000#32) (Host.exp lp)) (splat 0x40000000#32))) lp

/-- The vector of row sums. -/
def rows (a0 : FVec F S1048576x80 .f32) (a1 : IVec S1048576 32) : FVec F S1048576 .f32 :=
  Host.reduceAdd (entries a0 a1) (constant S_ .f32 0x00000000#32) Facts₀.reducesTo_S1048576x80_S1048576_d1 Facts₀.h_S_

/-- The result buffer after the operations: the mean of the row sums. -/
theorem out_eq (V : Valuation τ sig (Elt F)) :
    after ops V (main_v16 : DevRef τ sig)
      = Host.divf (Host.reduceAdd (rows (V (main_arg0 : DevRef τ sig)) (V (main_arg1 : DevRef τ sig))) (constant S_ .f32 0x00000000#32)
          Facts₀.reducesTo_S1048576_S_d0 Facts₀.h_S_) (constant S_ .f32 0x49800000#32) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-! ## At the extended reals -/

theorem cmpi_eq_comm (x y : BitVec 32) : IntOp.cmpi .eq x y = IntOp.cmpi .eq y x := by
  show BitVec.ofBool (x == y) = BitVec.ofBool (y == x)
  rw [BEq.comm]

theorem classes_apply (a1 : IVec S1048576 32) (r : Fin 1048576) (j : Fin 80) : classes a1 (ix2 r j) = a1 (ix1 r) := by
  unfold classes
  refine (broadcastInDim_apply _ _ _ (ix2 r j) (ix2 r (0 : Fin 1)) fun ax => ?_).trans ?_
  · match ax with
    | ⟨0, _⟩ => rfl
    | ⟨1, _⟩ => rfl
  · refine broadcastInDim_apply _ _ _ (ix2 r (0 : Fin 1)) (ix1 r) fun ax => ?_
    match ax with
    | ⟨0, _⟩ => rfl

theorem counters_apply (r : Fin 1048576) (j : Fin 80) : counters (ix2 r j) = BitVec.ofNat 32 j.val := by
  unfold counters
  refine (broadcastInDim_apply _ _ _ (ix2 r j) (ix2 (0 : Fin 1) j) fun ax => ?_).trans rfl
  match ax with
  | ⟨0, _⟩ => rfl
  | ⟨1, _⟩ => rfl

/-- One entry of the matrix is the reference's spelling of the loss entry. -/
theorem entries_apply (a0 : FVec Ideal S1048576x80 .f32) (a1 : IVec S1048576 32) (r : Fin 1048576) (j : Fin 80) :
    entries (F := Ideal) a0 a1 (ix2 r j)
      = Cert.Focal.rElt (a0 (ix2 r j)) (IntOp.cmpi .eq (BitVec.ofNat 32 j.val) (a1 (ix1 r))) := by
  show Cert.Focal.rChain (a0 (ix2 r j) * Cert.Focal.rSign (IntOp.cmpi .eq (classes a1 (ix2 r j)) (counters (ix2 r j)))) = _
  rw [classes_apply, counters_apply, cmpi_eq_comm]
  rfl

theorem lift_eq (h : S1048576x80.Reduces [1] S1048576) (r : Fin 1048576) (j : Fin 80) : h.lift (ix1 r) j = ix2 r j :=
  funext fun a => Fin.ext (by match a with | ⟨0, _⟩ => rfl | ⟨1, _⟩ => rfl)

/-- The vector of row sums is the vector of the rows' losses. -/
theorem rows_eq (a0 : FVec Ideal S1048576x80 .f32) (a1 : IVec S1048576 32) :
    rows (F := Ideal) a0 a1 = Cert.Focal.rowLosses Cert.Focal.rElt a0 a1 := by
  funext i
  obtain ⟨r, rfl⟩ : ∃ r : Fin 1048576, i = ix1 r := ⟨i 0, eq_ix1 i⟩
  have h : S1048576x80.Reduces [1] S1048576 := by decide
  refine (Ideal.hostReduceAdd_single Facts₀.reducesTo_S1048576x80_S1048576_d1 h (entries (F := Ideal) a0 a1) _ (ix1 r)).trans ?_
  show (Ideal.ofBits .f32 0x00000000#32 : EReal) + (∑ k : Fin 80, entries (F := Ideal) a0 a1 (h.lift (ix1 r) k) : EReal) = _
  rw [Ideal.ofBits_zero_f32, zero_add]
  show (∑ k : Fin 80, entries (F := Ideal) a0 a1 (h.lift (ix1 r) k) : EReal)
    = ∑ j : Fin 80, Cert.Focal.rElt (a0 (ix2 r j)) (IntOp.cmpi .eq (BitVec.ofNat 32 j.val) (a1 (ix1 r)))
  refine Finset.sum_congr rfl fun j _ => ?_
  rw [lift_eq h r j]
  exact entries_apply a0 a1 r j

/-- Every weakly fair execution of the reference terminates with the result at the mean of the rows' losses of the
    argument arrays, which end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v16)
        = Cert.Focal.mean Facts₀.reducesTo_S1048576_S_d0 Facts₀.h_S_
            (Cert.Focal.rowLosses Cert.Focal.rElt (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c main_v16).trans ((out_eq _).trans (congrArg (Cert.Focal.mean _ _) (rows_eq _ _))),
      (h c main_arg0).trans (arg0_eq _), (h c main_arg1).trans (arg1_eq _)⟩)
    (run_fold m ρ)

end Cert.ReferenceIdeal.RefValue

end
-- ==== Proof.lean ====
/-
  Focal loss, summed over the 80 classes and averaged over the 1048576 rows: the kernel program against its reference,
  on the extended reals.

  Both programs compute, for every entry x of the input, a sign s (+1 when the entry's column is its row's target
  class, -1 otherwise), the logarithm lp of the sigmoid of x·s through the stable form -(max(0, -x·s) + log(1 +
  exp(-|x·s|))), and the entry's loss -(1 - exp(lp))²·lp; they sum the losses along each row and take the mean of
  the 1048576 row sums (a host sum from zero, divided by 1048576). The kernel does the entrywise part and the row sums
  block by block — grid point t on rows 8192·t … 8192·t + 8191 — and the mean on the host after the region; the
  reference does everything on the host.

  The two spell an entry's loss differently (selecting the sign or computing 2·b - 1; 0 - y or -y; the product of
  1 - exp(lp) with itself or the power function at exponent 2), and entry by entry the spellings agree at every
  extended real (Proof/Elt.lean): the power function at exponent 2 is the product off -∞, and 1 - exp(lp) is never
  -∞. So the vectors of row sums are equal (both are plain sums over the 80 columns, the host's with a zero added in
  front) and the same mean is taken of both. No finiteness of the input is used.

  Proof/KernelBlock.lean reads one stored block, Proof/KernelArray.lean the output array after the region,
  Proof/KernelRun.lean the result after the host operations that follow it; Proof/RefRun.lean lists the reference's
  operations and runs them, Proof/RefValue.lean reads their result; Proof/Spec.lean states the common quantity.
-/
import proofs.«103590_j22393959482076_2_alg».proof.Defs
import proofs.«103590_j22393959482076_2_alg».proof.Proof.Gen.Kernel
import proofs.«103590_j22393959482076_2_alg».proof.Proof.Gen.Kernel.Skeleton
import proofs.«103590_j22393959482076_2_alg».proof.Proof.Gen.Kernel.Launch
import proofs.«103590_j22393959482076_2_alg».proof.Proof.Gen.Kernel.Points
import proofs.«103590_j22393959482076_2_alg».proof.Proof.Gen.Kernel.Frame
import proofs.«103590_j22393959482076_2_alg».proof.Proof.Gen.KernelIdeal
import proofs.«103590_j22393959482076_2_alg».proof.Proof.Gen.KernelIdeal.Skeleton
import proofs.«103590_j22393959482076_2_alg».proof.Proof.Gen.KernelIdeal.Launch
import proofs.«103590_j22393959482076_2_alg».proof.Proof.Gen.KernelIdeal.Points
import proofs.«103590_j22393959482076_2_alg».proof.Proof.Gen.KernelIdeal.Frame
import proofs.«103590_j22393959482076_2_alg».proof.Proof.Gen.ReferenceIdeal
import proofs.«103590_j22393959482076_2_alg».proof.Proof.Gen.Pre_finite_inputs
import proofs.«103590_j22393959482076_2_alg».proof.Proof.KernelRun
import proofs.«103590_j22393959482076_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- From arguments that agree, both programs end at the mean of the rows' losses: the kernel's spelling of an entry's
    loss on one side, the reference's on the other, equal entry by entry. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2, ← Cert.Focal.rowLosses_congr]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
